-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩

abbrev nBuf : Space → Nat
  | .hbm => 69
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S50000, .i32⟩
  | .hbm, ⟨14, _⟩ => ⟨S1650000, .i32⟩
  | .hbm, ⟨15, _⟩ => ⟨S1650000, .i32⟩
  | .hbm, ⟨16, _⟩ => ⟨S_, .f32⟩
  | .hbm, ⟨17, _⟩ => ⟨S1650000, .f32⟩
  | .hbm, ⟨18, _⟩ => ⟨S_, .f32⟩
  | .hbm, ⟨19, _⟩ => ⟨S50000, .f32⟩
  | .hbm, ⟨20, _⟩ => ⟨S1650000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .i1⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S1650000, .i32⟩
  | .hbm, ⟨32, _⟩ => ⟨S1650000, .i1⟩
  | .hbm, ⟨33, _⟩ => ⟨S_, .i32⟩
  | .hbm, ⟨34, _⟩ => ⟨S1650000, .i32⟩
  | .hbm, ⟨35, _⟩ => ⟨S1650000, .i32⟩
  | .hbm, ⟨36, _⟩ => ⟨S1650000, .i32⟩
  | .hbm, ⟨37, _⟩ => ⟨S1650000x1, .i32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x64, .f32⟩
  | .hbm, ⟨58, _⟩ => ⟨S1650000x1, .f32⟩
  | .hbm, ⟨59, _⟩ => ⟨S1650000x64, .f32⟩
  | .hbm, ⟨60, _⟩ => ⟨S1650000x64, .f32⟩
  | .hbm, ⟨61, _⟩ => ⟨S_, .f32⟩
  | .hbm, ⟨62, _⟩ => ⟨S50000x64, .f32⟩
  | .hbm, ⟨63, _⟩ => ⟨S1650000x1, .i32⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S64x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S64x64, .f32⟩
  | .local _ .vmem, ⟨10, _⟩ => ⟨S64, .f32⟩
  | .local _ .vmem, ⟨11, _⟩ => ⟨S5000x64, .f32⟩
  | .local _ .vmem, ⟨12, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  shapeCasts_S5000x64_S5000x64 : S5000x64.ShapeCasts S5000x64
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S1x64 : Shape := ⟨2, ![1, 64]⟩
abbrev S_ : Shape := ⟨0, ![]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x64 : Shape := ⟨2, ![1650000, 64]⟩

abbrev nBuf : Space → Nat
  | .hbm => 79
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S50000x64, .f32⟩
  | .hbm, ⟨9, _⟩ => ⟨S1x64, .f32⟩
  | .hbm, ⟨10, _⟩ => ⟨S50000x64, .f32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S50000x64, .f32⟩
  | .hbm, ⟨15, _⟩ => ⟨S50000x64, .f32⟩
  | .hbm, ⟨16, _⟩ => ⟨S50000, .i32⟩
  | .hbm, ⟨17, _⟩ => ⟨S1x1600000, .i32⟩
  | .hbm, ⟨18, _⟩ => ⟨S1600000, .i32⟩
  | .hbm, ⟨19, _⟩ => ⟨S1650000, .i32⟩
  | .hbm, ⟨20, _⟩ => ⟨S1x1600000, .i32⟩
  | .hbm, ⟨21, _⟩ => ⟨S1600000, .i32⟩
  | .hbm, ⟨22, _⟩ => ⟨S1650000, .i32⟩
  | .hbm, ⟨23, _⟩ => ⟨S_, .f32⟩
  | .hbm, ⟨24, _⟩ => ⟨S1650000, .f32⟩
  | .hbm, ⟨25, _⟩ => ⟨S_, .f32⟩
  | .hbm, ⟨26, _⟩ => ⟨S50000, .f32⟩
  | .hbm, ⟨27, _⟩ => ⟨S1650000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S1650000, .i32⟩
  | .hbm, ⟨39, _⟩ => ⟨S1650000, .i1⟩
  | .hbm, ⟨40, _⟩ => ⟨S_, .i32⟩
  | .hbm, ⟨41, _⟩ => ⟨S1650000, .i32⟩
  | .hbm, ⟨42, _⟩ => ⟨S1650000, .i32⟩
  | .hbm, ⟨43, _⟩ => ⟨S1650000, .i32⟩
  | .hbm, ⟨44, _⟩ => ⟨S1650000x1, .i32⟩
  | .hbm, ⟨45, _⟩ => ⟨S1650000, .f32⟩
  | .hbm, ⟨46, _⟩ => ⟨S_, .i32⟩
  | .hbm, ⟨47, _⟩ => ⟨S1650000, .i32⟩
  | .hbm, ⟨48, _⟩ => ⟨S1650000, .i1⟩
  | .hbm, ⟨49, _⟩ => ⟨S_, .i32⟩
  | .hbm, ⟨50, _⟩ => ⟨S1650000, .i32⟩
  | .hbm, ⟨51, _⟩ => ⟨S1650000, .i32⟩
  | .hbm, ⟨52, _⟩ => ⟨S1650000, .i32⟩
  | .hbm, ⟨53, _⟩ => ⟨S1650000x1, .i32⟩
  | .hbm, ⟨54, _⟩ => ⟨S1650000, .f32⟩
  | .hbm, ⟨55, _⟩ => ⟨S1650000, .f32⟩
  | .hbm, ⟨56, _⟩ => ⟨S_, .i32⟩
  | .hbm, ⟨57, _⟩ => ⟨S1650000, .i32⟩
  | .hbm, ⟨58, _⟩ => ⟨S1650000, .i1⟩
  | .hbm, ⟨59, _⟩ => ⟨S_, .i32⟩
  | .hbm, ⟨60, _⟩ => ⟨S1650000, .i32⟩
  | .hbm, ⟨61, _⟩ => ⟨S1650000, .i32⟩
  | .hbm, ⟨62, _⟩ => ⟨S1650000, .i32⟩
  | .hbm, ⟨63, _⟩ => ⟨S1650000x1, .i32⟩
  | .hbm, ⟨64, _⟩ => ⟨S1650000x64, .f32⟩
  | .hbm, ⟨65, _⟩ => ⟨S1650000x1, .f32⟩
  | .hbm, ⟨66, _⟩ => ⟨S1650000x64, .f32⟩
  | .hbm, ⟨67, _⟩ => ⟨S1650000x64, .f32⟩
  | .hbm, ⟨68, _⟩ => ⟨S_, .f32⟩
  | .hbm, ⟨69, _⟩ => ⟨S50000x64, .f32⟩
  | .hbm, ⟨70, _⟩ => ⟨S1650000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_4 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRunNamed.lean ====
/-
  The idealized kernel's run with its result buffer named.

  @main is five segments: the first pallas_call, three stretches of host operations, the second pallas_call. The
  contents of every buffer at each boundary are a fold from the launch memory (W0 … W5): a call replaces its output
  array by what its write-backs leave and keeps every other buffer, a host stretch applies its operations. Every weakly
  fair execution ends with every unscoped buffer at the last boundary's contents W5; the frame claim keeps of that only
  the argument arrays, and here it is kept for the result buffer as well.
-/
import proofs.«118106_j11630771437844_2_alg».proof.Proof.Gen.KernelIdeal.Frame

set_option maxRecDepth 16384

noncomputable section

namespace Cert.Gcn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched: the segments' launch, the last thread state read against the final state. -/
theorem run_result : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Run

end Cert.Gcn.Kernel

end
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«118106_j11630771437844_2_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.LibHostBroadcast.lean ====
/-
  Host broadcasts of a column, of a row and of a scalar, read at an index given by coordinates.

  `broadcast_in_dim` moves no data. A column [a, 1] broadcast over b columns has, at (p, c), the column's entry (p, 0);
  a row [1, b] broadcast over a rows has, at (p, c), the row's entry (0, c); a vector [b] placed as the row [1, b] has,
  at (u, c), the vector's entry c; a scalar broadcast to any shape has the scalar everywhere. Composed: a vector [a]
  kept as a column and spread over the columns reads its entry p at (p, c), a vector [b] placed as a row and spread
  over the rows reads its entry c. Generic in the extents; the axis maps are passed with their values.
-/
import Idealize.ShloMosaic.Lib.Pipeline.Value
import Idealize.ShloMosaic.Lib.ValueIdx

namespace Cert.LibHostBroadcast

open Idealize.ShloMosaic Idealize.ShloMosaic.ValueIdx

variable {α : Type}

/-- An [a, 1] column broadcast (axes kept in place) over b columns reads, at (p, c), the column at (p, 0). -/
theorem bcast_a1_ab_apply {a b : ℕ} (dims : Fin (⟨2, ![a, 1]⟩ : Shape).rank → Fin (⟨2, ![a, b]⟩ : Shape).rank)
    (hd0 : dims ⟨0, Nat.succ_pos 1⟩ = ⟨0, Nat.succ_pos 1⟩)
    (h : (⟨2, ![a, 1]⟩ : Shape).BroadcastsInDim ⟨2, ![a, b]⟩ dims) (x : (⟨2, ![a, 1]⟩ : Shape).Idx → α)
    (p : Fin a) (c : Fin b) : broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else (ix2 p c (dims ⟨0, Nat.succ_pos 1⟩)).val
    rw [hd0]
    show p.val = if a = 1 then 0 else p.val
    split
    · have := p.isLt; omega
    · rfl
  | ⟨1, _⟩ => rfl

/-- A [1, b] row broadcast (axes kept in place) over a rows reads, at (p, c), the row at (0, c). -/
theorem bcast_1b_ab_apply {a b : ℕ} (dims : Fin (⟨2, ![1, b]⟩ : Shape).rank → Fin (⟨2, ![a, b]⟩ : Shape).rank)
    (hd1 : dims ⟨1, Nat.lt_succ_self 1⟩ = ⟨1, Nat.lt_succ_self 1⟩)
    (h : (⟨2, ![1, b]⟩ : Shape).BroadcastsInDim ⟨2, ![a, b]⟩ dims) (x : (⟨2, ![1, b]⟩ : Shape).Idx → α)
    (p : Fin a) (c : Fin b) : broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else (ix2 p c (dims ⟨1, Nat.lt_succ_self 1⟩)).val
    rw [hd1]
    show c.val = if b = 1 then 0 else c.val
    split
    · have := c.isLt; omega
    · rfl

/-- A vector [b] placed along axis 1 of a [1, b] row reads, at (u, c), the vector at c. -/
theorem bcast_b_1b_apply {b : ℕ} (dims : Fin (⟨1, ![b]⟩ : Shape).rank → Fin (⟨2, ![1, b]⟩ : Shape).rank)
    (hd : dims ⟨0, Nat.one_pos⟩ = ⟨1, Nat.lt_succ_self 1⟩)
    (h : (⟨1, ![b]⟩ : Shape).BroadcastsInDim ⟨2, ![1, b]⟩ dims) (x : (⟨1, ![b]⟩ : Shape).Idx → α)
    (u : Fin 1) (c : Fin b) : broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else (ix2 u c (dims ⟨0, Nat.one_pos⟩)).val
    rw [hd]
    show c.val = if b = 1 then 0 else c.val
    split
    · have := c.isLt; omega
    · rfl

/-- A vector [a] placed along axis 0 of an [a, 1] column reads, at (p, u), the vector at p. -/
theorem bcast_a_a1_apply {a : ℕ} (dims : Fin (⟨1, ![a]⟩ : Shape).rank → Fin (⟨2, ![a, 1]⟩ : Shape).rank)
    (hd : dims ⟨0, Nat.one_pos⟩ = ⟨0, Nat.succ_pos 1⟩)
    (h : (⟨1, ![a]⟩ : Shape).BroadcastsInDim ⟨2, ![a, 1]⟩ dims) (x : (⟨1, ![a]⟩ : Shape).Idx → α)
    (p : Fin a) (u : Fin 1) : broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else (ix2 p u (dims ⟨0, Nat.one_pos⟩)).val
    rw [hd]
    show p.val = if a = 1 then 0 else p.val
    split
    · have := p.isLt; omega
    · rfl

/-- A scalar broadcast to any shape is the scalar at every index. -/
theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun ax => ax.elim0

end Cert.LibHostBroadcast
-- ==== Proof.LibHostAffine.lean ====
/-
  An affine layer of a host program read at an entry, over the extended reals.

  The layer is  x ↦ x·W + b  on every row of an M×K array: the host's matrix product with plain dimension numbers,
  plus the bias vector [N] placed as the row [1, N] and spread over the M rows. At row `p` and column `q` it is
    Σ_{k < K} x(p, k) · W(k, q)  +  b(q).
  Generic in M, K, N; the two broadcasts' axis maps are passed with their values, the product's dimension numbers as
  any record equal to the plain ones.
-/
import proofs.«118106_j11630771437844_2_alg».proof.Proof.LibDotGeneralPlain
import proofs.«118106_j11630771437844_2_alg».proof.Proof.LibHostBroadcast

noncomputable section

open scoped BigOperators

namespace Cert.LibHostAffine

open Idealize.ShloMosaic Idealize.ShloMosaic.ValueIdx

variable {M K N : Nat}

/-- THE AFFINE LAYER AT AN ENTRY: the product's entry plus the bias's. -/
theorem affine_apply (D : DotDims ⟨2, ![M, K]⟩ ⟨2, ![K, N]⟩ ⟨2, ![M, N]⟩) (hD : D = DotDims.plain M K N)
    (prec : Option ContractPrecision)
    (d1 : Fin (⟨1, ![N]⟩ : Shape).rank → Fin (⟨2, ![1, N]⟩ : Shape).rank)
    (hd1 : d1 ⟨0, Nat.one_pos⟩ = ⟨1, Nat.lt_succ_self 1⟩)
    (h1 : (⟨1, ![N]⟩ : Shape).BroadcastsInDim ⟨2, ![1, N]⟩ d1)
    (d2 : Fin (⟨2, ![1, N]⟩ : Shape).rank → Fin (⟨2, ![M, N]⟩ : Shape).rank)
    (hd2 : d2 ⟨1, Nat.lt_succ_self 1⟩ = ⟨1, Nat.lt_succ_self 1⟩)
    (h2 : (⟨2, ![1, N]⟩ : Shape).BroadcastsInDim ⟨2, ![M, N]⟩ d2)
    (x : FVec Ideal ⟨2, ![M, K]⟩ .f32) (w : FVec Ideal ⟨2, ![K, N]⟩ .f32) (b : FVec Ideal ⟨1, ![N]⟩ .f32)
    (p : Fin M) (q : Fin N) :
    addf (Host.dotGeneral D prec x w)
        (broadcastInDim ⟨2, ![M, N]⟩ d2 h2 (broadcastInDim ⟨2, ![1, N]⟩ d1 h1 b)) (ix2 p q)
      = (∑ k : Fin K, x (ix2 p k) * w (ix2 k q)) + b (ix1 q) := by
  show FloatOps.dotGeneral D prec .single x w (ix2 p q)
      + broadcastInDim ⟨2, ![M, N]⟩ d2 h2 (broadcastInDim ⟨2, ![1, N]⟩ d1 h1 b) (ix2 p q) = _
  rw [Cert.LibDotGeneralPlain.dotGeneral_plain_apply D hD, Cert.LibHostBroadcast.bcast_1b_ab_apply d2 hd2 h2,
    Cert.LibHostBroadcast.bcast_b_1b_apply d1 hd1 h1]

end Cert.LibHostAffine

end
-- ==== Proof.Layers.lean ====
/-
  The two dense stages of the network, entry by entry, over the extended reals.

  For a row block of M nodes (M = 5000 for one grid point's block, M = 50000 for the whole node set):

    hidden x W₁ b₁ W_g (p, q) = Σ_{k < 64} max( Σ_{j < 128} x(p, j) · W₁(j, k) + b₁(k), 0 ) · W_g(k, q)

  is the first linear layer, the rectifier and the graph layer's weight applied before the aggregation, and

    out h W₂ b₂ (p, q) = Σ_{k < 64} h(p, k) · W₂(k, q) + b₂(q)

  is the last linear layer. A row of either depends only on the same row of its first operand, which is why a stage
  computed row block by row block is the stage of the whole array restricted to the block.

  Each stage is read here in its two spellings: the kernel's (matrix products into a zero accumulator, the operands
  first narrowed to bf16 — no change over the extended reals —, the bias a vector recast as a row and spread over the
  rows, the rectifier a maximum with a spread zero scalar) and the host's (dot_general, the bias placed as a row by two
  broadcasts, the rectifier a maximum with a broadcast zero).
-/
import Idealize.ShloMosaic.Lib.ValueLayout
import proofs.«118106_j11630771437844_2_alg».proof.Proof.LibHostAffine

noncomputable section

open scoped BigOperators

namespace Cert.Gcn.Layers

open Idealize.ShloMosaic Idealize.ShloMosaic.ValueIdx

variable {M : Nat}

/-- The zero both programs compare against and accumulate from: the word of +0.0, kept as a word. -/
abbrev zero : EReal := Ideal.ofBits .f32 0x00000000#32

/-- relu(x·W₁ + b₁)·W_g at an entry. -/
def hidden (x : (⟨2, ![M, 128]⟩ : Shape).Idx → EReal) (w1 : (⟨2, ![128, 64]⟩ : Shape).Idx → EReal)
    (b1 : (⟨1, ![64]⟩ : Shape).Idx → EReal) (wg : (⟨2, ![64, 64]⟩ : Shape).Idx → EReal) :
    (⟨2, ![M, 64]⟩ : Shape).Idx → EReal :=
  fun i => ∑ k : Fin 64, max ((∑ j : Fin 128, x (ix2 (i 0) j) * w1 (ix2 j k)) + b1 (ix1 k)) zero * wg (ix2 k (i 1))

theorem hidden_apply (x : (⟨2, ![M, 128]⟩ : Shape).Idx → EReal) (w1 : (⟨2, ![128, 64]⟩ : Shape).Idx → EReal)
    (b1 : (⟨1, ![64]⟩ : Shape).Idx → EReal) (wg : (⟨2, ![64, 64]⟩ : Shape).Idx → EReal) (p : Fin M) (q : Fin 64) :
    hidden x w1 b1 wg (ix2 p q)
      = ∑ k : Fin 64, max ((∑ j : Fin 128, x (ix2 p j) * w1 (ix2 j k)) + b1 (ix1 k)) zero * wg (ix2 k q) := rfl

/-- h·W₂ + b₂ at an entry. -/
def out (h : (⟨2, ![M, 64]⟩ : Shape).Idx → EReal) (w2 : (⟨2, ![64, 64]⟩ : Shape).Idx → EReal)
    (b2 : (⟨1, ![64]⟩ : Shape).Idx → EReal) : (⟨2, ![M, 64]⟩ : Shape).Idx → EReal :=
  fun i => (∑ k : Fin 64, h (ix2 (i 0) k) * w2 (ix2 k (i 1))) + b2 (ix1 (i 1))

theorem out_apply (h : (⟨2, ![M, 64]⟩ : Shape).Idx → EReal) (w2 : (⟨2, ![64, 64]⟩ : Shape).Idx → EReal)
    (b2 : (⟨1, ![64]⟩ : Shape).Idx → EReal) (p : Fin M) (q : Fin 64) :
    out h w2 b2 (ix2 p q) = (∑ k : Fin 64, h (ix2 p k) * w2 (ix2 k q)) + b2 (ix1 q) := rfl

/-! ## The kernel's spelling -/

/-- A bias vector recast as the row [1, 64] and spread over M rows reads, at (p, q), the vector's entry q. -/
theorem bias_row_apply (b : FVec Ideal ⟨1, ![64]⟩ .f32) (hc : (⟨1, ![64]⟩ : Shape).ShapeCasts ⟨2, ![1, 64]⟩)
    (hb : (⟨2, ![1, 64]⟩ : Shape).Broadcasts ⟨2, ![M, 64]⟩) (p : Fin M) (q : Fin 64) :
    broadcastTo ⟨2, ![M, 64]⟩ (shapeCast ⟨2, ![1, 64]⟩ b hc) hb (ix2 p q) = b (ix1 q) := by
  rw [broadcastTo_1b_ab_apply, shapeCast_a_1a_apply]

/-- The kernel's first stage at an entry: two matrix products into zero accumulators around the biased rectifier. -/
theorem kernel_hidden_apply
    (D1 : DotDims ⟨2, ![M, 128]⟩ ⟨2, ![128, 64]⟩ ⟨2, ![M, 64]⟩) (hD1 : D1 = DotDims.plain M 128 64)
    (D2 : DotDims ⟨2, ![M, 64]⟩ ⟨2, ![64, 64]⟩ ⟨2, ![M, 64]⟩) (hD2 : D2 = DotDims.plain M 64 64)
    (hn : FTy.bits .bf16 < FTy.bits .f32)
    (hc : (⟨1, ![64]⟩ : Shape).ShapeCasts ⟨2, ![1, 64]⟩) (hb : (⟨2, ![1, 64]⟩ : Shape).Broadcasts ⟨2, ![M, 64]⟩)
    (x : FVec Ideal ⟨2, ![M, 128]⟩ .f32) (w1 : FVec Ideal ⟨2, ![128, 64]⟩ .f32) (b1 : FVec Ideal ⟨1, ![64]⟩ .f32)
    (wg : FVec Ideal ⟨2, ![64, 64]⟩ .f32) (p : Fin M) (q : Fin 64) :
    matmul D2 none
        (truncf .bf16
          (maximumf
            (addf (matmul D1 none (truncf .bf16 x hn) (truncf .bf16 w1 hn) (constant (F := Ideal) ⟨2, ![M, 64]⟩ .f32 0x00000000#32))
              (broadcastTo ⟨2, ![M, 64]⟩ (shapeCast ⟨2, ![1, 64]⟩ b1 hc) hb))
            (broadcast ⟨2, ![M, 64]⟩ (Scalar.ofBits (F := Ideal) .f32 0x00000000#32))) hn)
        (truncf .bf16 wg hn) (constant (F := Ideal) ⟨2, ![M, 64]⟩ .f32 0x00000000#32) (ix2 p q)
      = hidden x w1 b1 wg (ix2 p q) := by
  rw [hidden_apply]
  refine (Cert.LibMatmulPlain.matmul_plain_zero_apply D2 hD2 none _ _ p q).trans ?_
  refine Finset.sum_congr rfl fun k _ => ?_
  rw [truncf_apply, truncf_apply, maximumf_apply, addf_apply, bias_row_apply, broadcast_apply]
  have e : matmul D1 none (truncf .bf16 x hn) (truncf .bf16 w1 hn) (constant (F := Ideal) ⟨2, ![M, 64]⟩ .f32 0x00000000#32) (ix2 p k)
      = ∑ j : Fin 128, x (ix2 p j) * w1 (ix2 j k) :=
    Cert.LibMatmulPlain.matmul_plain_zero_apply D1 hD1 none _ _ p k
  rw [e]
  rfl

/-- The kernel's last stage at an entry: one matrix product into a zero accumulator plus the bias row. -/
theorem kernel_out_apply
    (D : DotDims ⟨2, ![M, 64]⟩ ⟨2, ![64, 64]⟩ ⟨2, ![M, 64]⟩) (hD : D = DotDims.plain M 64 64)
    (hn : FTy.bits .bf16 < FTy.bits .f32) (hs : (⟨2, ![M, 64]⟩ : Shape).ShapeCasts ⟨2, ![M, 64]⟩)
    (hc : (⟨1, ![64]⟩ : Shape).ShapeCasts ⟨2, ![1, 64]⟩) (hb : (⟨2, ![1, 64]⟩ : Shape).Broadcasts ⟨2, ![M, 64]⟩)
    (h : FVec Ideal ⟨2, ![M, 64]⟩ .f32) (w2 : FVec Ideal ⟨2, ![64, 64]⟩ .f32) (b2 : FVec Ideal ⟨1, ![64]⟩ .f32)
    (p : Fin M) (q : Fin 64) :
    addf (matmul D none (truncf .bf16 (shapeCast ⟨2, ![M, 64]⟩ h hs) hn) (truncf .bf16 w2 hn)
          (constant (F := Ideal) ⟨2, ![M, 64]⟩ .f32 0x00000000#32))
        (broadcastTo ⟨2, ![M, 64]⟩ (shapeCast ⟨2, ![1, 64]⟩ b2 hc) hb) (ix2 p q)
      = out h w2 b2 (ix2 p q) := by
  rw [out_apply, addf_apply, bias_row_apply, shapeCast_self]
  have e : matmul D none (truncf .bf16 h hn) (truncf .bf16 w2 hn) (constant (F := Ideal) ⟨2, ![M, 64]⟩ .f32 0x00000000#32) (ix2 p q)
      = ∑ k : Fin 64, h (ix2 p k) * w2 (ix2 k q) :=
    Cert.LibMatmulPlain.matmul_plain_zero_apply D hD none _ _ p q
  rw [e]

/-! ## The host's spelling -/

/-- The host's first stage: dot_general, bias row, maximum with a broadcast zero, dot_general. -/
theorem host_hidden_eq
    (D1 : DotDims ⟨2, ![M, 128]⟩ ⟨2, ![128, 64]⟩ ⟨2, ![M, 64]⟩) (hD1 : D1 = DotDims.plain M 128 64)
    (D2 : DotDims ⟨2, ![M, 64]⟩ ⟨2, ![64, 64]⟩ ⟨2, ![M, 64]⟩) (hD2 : D2 = DotDims.plain M 64 64)
    (d1 : Fin (⟨1, ![64]⟩ : Shape).rank → Fin (⟨2, ![1, 64]⟩ : Shape).rank)
    (hd1 : d1 ⟨0, Nat.one_pos⟩ = ⟨1, Nat.lt_succ_self 1⟩)
    (h1 : (⟨1, ![64]⟩ : Shape).BroadcastsInDim ⟨2, ![1, 64]⟩ d1)
    (d2 : Fin (⟨2, ![1, 64]⟩ : Shape).rank → Fin (⟨2, ![M, 64]⟩ : Shape).rank)
    (hd2 : d2 ⟨1, Nat.lt_succ_self 1⟩ = ⟨1, Nat.lt_succ_self 1⟩)
    (h2 : (⟨2, ![1, 64]⟩ : Shape).BroadcastsInDim ⟨2, ![M, 64]⟩ d2)
    (d0 : Fin (⟨0, ![]⟩ : Shape).rank → Fin (⟨2, ![M, 64]⟩ : Shape).rank)
    (h0 : (⟨0, ![]⟩ : Shape).BroadcastsInDim ⟨2, ![M, 64]⟩ d0)
    (x : FVec Ideal ⟨2, ![M, 128]⟩ .f32) (w1 : FVec Ideal ⟨2, ![128, 64]⟩ .f32) (b1 : FVec Ideal ⟨1, ![64]⟩ .f32)
    (wg : FVec Ideal ⟨2, ![64, 64]⟩ .f32) :
    Host.dotGeneral D2 none
        (maximumf
          (addf (Host.dotGeneral D1 none x w1)
            (broadcastInDim ⟨2, ![M, 64]⟩ d2 h2 (broadcastInDim ⟨2, ![1, 64]⟩ d1 h1 b1)))
          (broadcastInDim ⟨2, ![M, 64]⟩ d0 h0 (constant (F := Ideal) ⟨0, ![]⟩ .f32 0x00000000#32))) wg
      = hidden x w1 b1 wg := by
  funext i
  obtain ⟨p, q, rfl⟩ : ∃ (p : Fin M) (q : Fin 64), i = ix2 p q := ⟨i 0, i 1, eq_ix2 i⟩
  rw [hidden_apply]
  refine (Cert.LibDotGeneralPlain.dotGeneral_plain_apply D2 hD2 none .single _ _ p q).trans ?_
  refine Finset.sum_congr rfl fun k _ => ?_
  rw [maximumf_apply, Cert.LibHostAffine.affine_apply D1 hD1 none d1 hd1 h1 d2 hd2 h2,
    Cert.LibHostBroadcast.bcast_scalar_apply]
  rfl

/-- The host's last stage: dot_general plus the bias row. -/
theorem host_out_eq
    (D : DotDims ⟨2, ![M, 64]⟩ ⟨2, ![64, 64]⟩ ⟨2, ![M, 64]⟩) (hD : D = DotDims.plain M 64 64)
    (d1 : Fin (⟨1, ![64]⟩ : Shape).rank → Fin (⟨2, ![1, 64]⟩ : Shape).rank)
    (hd1 : d1 ⟨0, Nat.one_pos⟩ = ⟨1, Nat.lt_succ_self 1⟩)
    (h1 : (⟨1, ![64]⟩ : Shape).BroadcastsInDim ⟨2, ![1, 64]⟩ d1)
    (d2 : Fin (⟨2, ![1, 64]⟩ : Shape).rank → Fin (⟨2, ![M, 64]⟩ : Shape).rank)
    (hd2 : d2 ⟨1, Nat.lt_succ_self 1⟩ = ⟨1, Nat.lt_succ_self 1⟩)
    (h2 : (⟨2, ![1, 64]⟩ : Shape).BroadcastsInDim ⟨2, ![M, 64]⟩ d2)
    (h : FVec Ideal ⟨2, ![M, 64]⟩ .f32) (w2 : FVec Ideal ⟨2, ![64, 64]⟩ .f32) (b2 : FVec Ideal ⟨1, ![64]⟩ .f32) :
    addf (Host.dotGeneral D none h w2)
        (broadcastInDim ⟨2, ![M, 64]⟩ d2 h2 (broadcastInDim ⟨2, ![1, 64]⟩ d1 h1 b2))
      = out h w2 b2 := by
  funext i
  obtain ⟨p, q, rfl⟩ : ∃ (p : Fin M) (q : Fin 64), i = ix2 p q := ⟨i 0, i 1, eq_ix2 i⟩
  rw [out_apply, Cert.LibHostAffine.affine_apply D hD none d1 hd1 h1 d2 hd2 h2]

end Cert.Gcn.Layers

end
-- ==== Proof.KernelStages.lean ====
/-
  What each kernel body leaves in its output block, as a dense stage of its input blocks.

  The first body loads a 5000-row block of x and the three small operands whole, and stores into its output block the
  hidden stage relu(x·W₁ + b₁)·W_g of that block; the second loads a 5000-row block of the aggregated features and
  stores the last stage h·W₂ + b₂ of it. Each body makes one store through the whole block, so what it leaves is the
  stored value; each load is of a whole buffer, so it reads the buffer's contents.
-/
import proofs.«118106_j11630771437844_2_alg».proof.Proof.Gen.KernelIdeal.Frame
import Idealize.ShloMosaic.Lib.Pipeline.Value
import proofs.«118106_j11630771437844_2_alg».proof.Proof.Layers

noncomputable section

namespace Cert.Gcn.Kernel

open Idealize.ShloMosaic Idealize.ShloMosaic.ValueIdx Cert.KernelIdeal Cert.KernelIdeal.Gen

theorem zeros2 : (![0, 0] : Fin 2 → Nat) = fun _ => 0 := funext fun a => by fin_cases a <;> rfl
theorem zeros1 : (![0] : Fin 1 → Nat) = fun _ => 0 := funext fun a => by fin_cases a <;> rfl

/-- The first body's output block is the hidden stage of its input blocks. -/
theorem stage0_eq (x0 : Vec Ideal S5000x128 .f32) (x1 : Vec Ideal S128x64 .f32) (x2 : Vec Ideal S64 .f32)
    (x3 : Vec Ideal S64x64 .f32) :
    out0_4 (F := Ideal) x0 x1 x2 x3 = Cert.Gcn.Layers.hidden x0 x1 x2 x3 := by
  unfold out0_4
  rw [View.canon_unit_zero zeros2]
  simp only [View.ld_unit_zero (S := S5000x128) zeros2, View.ld_unit_zero (S := S128x64) zeros2,
    View.ld_unit_zero (S := S64) zeros1, View.ld_unit_zero (S := S64x64) zeros2]
  funext i
  obtain ⟨p, q, rfl⟩ : ∃ (p : Fin 5000) (q : Fin 64), i = ix2 p q := ⟨i 0, i 1, eq_ix2 i⟩
  unfold k0_pay1
  exact Cert.Gcn.Layers.kernel_hidden_apply dot_S5000x128_S128x64_S5000x64_1_0_0_1_n_n rfl
    dot_S5000x64_S64x64_S5000x64_1_0_0_1_n_n rfl Facts₀.bitsLt_bf16_f32 Facts₀.shapeCasts_S64_S1x64
    Facts₀.broadcasts_S1x64_S5000x64 x0 x1 x2 x3 p q

/-- The second body's output block is the last stage of its input blocks. -/
theorem stage1_eq (x0 : Vec Ideal S5000x64 .f32) (x1 : Vec Ideal S64x64 .f32) (x2 : Vec Ideal S64 .f32) :
    out1_3 (F := Ideal) x0 x1 x2 = Cert.Gcn.Layers.out x0 x1 x2 := by
  unfold out1_3
  rw [View.canon_unit_zero zeros2]
  simp only [View.ld_unit_zero (S := S5000x64) zeros2, View.ld_unit_zero (S := S64x64) zeros2,
    View.ld_unit_zero (S := S64) zeros1]
  funext i
  obtain ⟨p, q, rfl⟩ : ∃ (p : Fin 5000) (q : Fin 64), i = ix2 p q := ⟨i 0, i 1, eq_ix2 i⟩
  unfold k1_pay1
  exact Cert.Gcn.Layers.kernel_out_apply dot_S5000x64_S64x64_S5000x64_1_0_0_1_n_n rfl Facts₀.bitsLt_bf16_f32
    Facts₀.shapeCasts_S5000x64_S5000x64 Facts₀.shapeCasts_S64_S1x64 Facts₀.broadcasts_S1x64_S5000x64 x0 x1 x2 p q

end Cert.Gcn.Kernel

end
-- ==== Proof.KernelArrays.lean ====
/-
  From blocks to arrays: what each pallas_call leaves in its output array.

  Either call walks ten grid points; point t takes rows 5000·t … 5000·t + 4999 of its first operand (the small operands
  whole at every point) and writes back rows 5000·t … 5000·t + 4999 of its output. A dense stage's row depends only on
  the same row of its first operand, so what point t writes back is block t of the stage of the WHOLE arrays; the ten
  blocks tile the 50000 rows, so after the call the output array is that stage of the arrays the call found on entry.
-/
import proofs.«118106_j11630771437844_2_alg».proof.Proof.KernelStages

set_option maxRecDepth 16384

noncomputable section

namespace Cert.Gcn.Kernel

open Idealize.ShloMosaic Idealize.ShloMosaic.TcCoe Idealize.ShloMosaic.ValueIdx Idealize.SL.Sem
open Cert.KernelIdeal Cert.KernelIdeal.Gen
open Idealize.ShloMosaic.Pipeline (Dat)
open Cert.Gcn.Layers (hidden out)

variable (V : (c : Dev nD) → (b : Ref sig .tc) → Buf (Elt Ideal) ((c : Thread nD τ).loc b))

/-! ## A stage's row reads one row of its first operand -/

theorem hidden_rows {B M : Nat} (xb : (⟨2, ![B, 128]⟩ : Shape).Idx → EReal) (X : (⟨2, ![M, 128]⟩ : Shape).Idx → EReal)
    (w1 : (⟨2, ![128, 64]⟩ : Shape).Idx → EReal) (b1 : (⟨1, ![64]⟩ : Shape).Idx → EReal)
    (wg : (⟨2, ![64, 64]⟩ : Shape).Idx → EReal) (p : Fin B) (P : Fin M) (q : Fin 64)
    (hx : ∀ j : Fin 128, xb (ix2 p j) = X (ix2 P j)) :
    hidden xb w1 b1 wg (ix2 p q) = hidden X w1 b1 wg (ix2 P q) := by
  rw [Cert.Gcn.Layers.hidden_apply, Cert.Gcn.Layers.hidden_apply]
  simp only [hx]

theorem out_rows {B M : Nat} (hb : (⟨2, ![B, 64]⟩ : Shape).Idx → EReal) (H : (⟨2, ![M, 64]⟩ : Shape).Idx → EReal)
    (w2 : (⟨2, ![64, 64]⟩ : Shape).Idx → EReal) (b2 : (⟨1, ![64]⟩ : Shape).Idx → EReal) (p : Fin B) (P : Fin M) (q : Fin 64)
    (hh : ∀ k : Fin 64, hb (ix2 p k) = H (ix2 P k)) :
    out hb w2 b2 (ix2 p q) = out H w2 b2 (ix2 P q) := by
  rw [Cert.Gcn.Layers.out_apply, Cert.Gcn.Layers.out_apply]
  simp only [hh]

/-! ## The first call -/

/-- The printed index maps over the grid: the row-blocked windows are at block t, the whole-array windows at block 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Block t of x is rows 5000·t … of x. -/
theorem xblock0_apply (c : Dev nD) (t : Fin cfg0.N) (y : S5000x128.Idx) (k : S50000x128.Idx)
    (hk0 : (k 0).val = 5000 * t.val + (y 0).val) (hk1 : (k 1).val = (y 1).val) :
    (iblk0 V c 0 t : Vec Ideal S5000x128 .f32) y = (V c main_arg0 : S50000x128.Idx → EReal) k := by
  obtain ⟨h0, h1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * (y 0).val = (k 0).val; rw [h0, hk0]; omega
  | ⟨1, _⟩ => show win0_0.index t (1 : Fin 2) * 128 + 1 * (y 1).val = (k 1).val; rw [h1, hk1]; omega

/-- The three small operands' blocks are the operands. -/
theorem w1block0_eq (c : Dev nD) (t : Fin cfg0.N) :
    (iblk0 V c 1 t : Vec Ideal S128x64 .f32) = (V c main_arg2 : S128x64.Idx → EReal) := by
  obtain ⟨-, -, h0, h1, -⟩ := idx0 t
  funext y
  unfold iblk0
  rw [View.read_apply]
  show V c main_arg2 _ = V c main_arg2 _
  congr 1
  funext a
  apply Fin.ext
  match a with
  | ⟨0, _⟩ => show win0_1.index t (0 : Fin 2) * 128 + 1 * (y 0).val = (y 0).val; rw [h0]; omega
  | ⟨1, _⟩ => show win0_1.index t (1 : Fin 2) * 64 + 1 * (y 1).val = (y 1).val; rw [h1]; omega

theorem b1block0_eq (c : Dev nD) (t : Fin cfg0.N) :
    (iblk0 V c 2 t : Vec Ideal S64 .f32) = (V c main_arg3 : S64.Idx → EReal) := by
  obtain ⟨-, -, -, -, h0, -⟩ := idx0 t
  funext y
  unfold iblk0
  rw [View.read_apply]
  show V c main_arg3 _ = V c main_arg3 _
  congr 1
  funext a
  apply Fin.ext
  match a with
  | ⟨0, _⟩ => show win0_2.index t (0 : Fin 1) * 64 + 1 * (y 0).val = (y 0).val; rw [h0]; omega

theorem wgblock0_eq (c : Dev nD) (t : Fin cfg0.N) :
    (iblk0 V c 3 t : Vec Ideal S64x64 .f32) = (V c main_arg4 : S64x64.Idx → EReal) := by
  obtain ⟨-, -, -, -, -, h0, h1, -⟩ := idx0 t
  funext y
  unfold iblk0
  rw [View.read_apply]
  show V c main_arg4 _ = V c main_arg4 _
  congr 1
  funext a
  apply Fin.ext
  match a with
  | ⟨0, _⟩ => show win0_3.index t (0 : Fin 2) * 64 + 1 * (y 0).val = (y 0).val; rw [h0]; omega
  | ⟨1, _⟩ => show win0_3.index t (1 : Fin 2) * 64 + 1 * (y 1).val = (y 1).val; rw [h1]; omega

/-- The hidden stage of block t of x, at a block index, is the hidden stage of x at the array index it sits at. -/
theorem hidden_block0 (c : Dev nD) (t : Fin cfg0.N) (y : S5000x64.Idx) (Y : S50000x64.Idx)
    (h0 : (Y 0).val = 5000 * t.val + (y 0).val) (h1 : (Y 1).val = (y 1).val) :
    hidden (iblk0 V c 0 t : Vec Ideal S5000x128 .f32) (V c main_arg2 : S128x64.Idx → EReal)
        (V c main_arg3 : S64.Idx → EReal) (V c main_arg4 : S64x64.Idx → EReal) y
      = hidden (V c main_arg0 : S50000x128.Idx → EReal) (V c main_arg2 : S128x64.Idx → EReal)
        (V c main_arg3 : S64.Idx → EReal) (V c main_arg4 : S64x64.Idx → EReal) Y := by
  obtain ⟨p, q, rfl⟩ : ∃ (p : Fin 5000) (q : Fin 64), y = ix2 p q := ⟨y 0, y 1, eq_ix2 y⟩
  obtain ⟨P, Q, rfl⟩ : ∃ (P : Fin 50000) (Q : Fin 64), Y = ix2 P Q := ⟨Y 0, Y 1, eq_ix2 Y⟩
  obtain rfl : Q = q := Fin.ext h1
  exact hidden_rows _ _ _ _ _ p P Q fun j => xblock0_apply V c t (ix2 p j) (ix2 P j) h0 rfl

/-- WHAT POINT t WRITES BACK is block t of the hidden stage of the arrays the call found. -/
theorem flushed0 (c : Dev nD) (t : Fin cfg0.N) :
    (dat0 V c).flushed 4 t = ((cfg0.win 4).blk t).view.read (Elt Ideal)
      (hidden (V c main_arg0 : S50000x128.Idx → EReal) (V c main_arg2 : S128x64.Idx → EReal)
        (V c main_arg3 : S64.Idx → EReal) (V c main_arg4 : S64x64.Idx → EReal)) := by
  obtain ⟨-, -, -, -, -, -, -, h40, h41⟩ := idx0 t
  show (cfg0.win 4).cut (grid0.coords t) ((dat0 V c).after 4 t) = _
  rw [after0_4, stage0_eq, w1block0_eq, b1block0_eq, wgblock0_eq]
  funext y
  refine hidden_block0 V c t y (((cfg0.win 4).blk t).view.emb y) ?_ ?_
  · show win0_4.index t (0 : Fin 2) * 5000 + 1 * (y 0).val = 5000 * t.val + (y 0).val
    rw [h40]; omega
  · show win0_4.index t (1 : Fin 2) * 64 + 1 * (y 1).val = (y 1).val
    rw [h41]; omega

/-- An index of the output array is in point t's block iff each coordinate is in the block's range. -/
theorem mem_blk0 (t : Fin cfg0.N) (i : S50000x64.Idx) :
    i ∈ ((cfg0.win 4).blk t).view.set ↔ ∀ a : Fin 2, win0_4.index t a * S5000x64.size a ≤ (i a).val
      ∧ (i a).val < win0_4.index t a * S5000x64.size a + S5000x64.size a := by
  show i ∈ ((View.whole main_v0).slice (win0_4.rect t)).set ↔ _
  rw [View.set_slice_whole, Rect.mem_set_unit]
  exact Iff.rfl

/-- Every row of the output is in the block of the point (row / 5000). -/
theorem cover0 (i : S50000x64.Idx) :
    ∃ t : Fin cfg0.N, (cfg0.win 4).flush t = true ∧ i ∈ ((cfg0.win 4).blk t).view.set := by
  have hN : cfg0.N = 10 := N_0
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [hN]; omega⟩, rfl⟩
  obtain ⟨-, -, -, -, -, -, -, h40, h41⟩ := idx0 t
  refine ⟨t, flush0_4 t, ?_⟩
  rw [mem_blk0]
  intro a
  match a with
  | ⟨0, _⟩ =>
    show win0_4.index t (0 : Fin 2) * 5000 ≤ (i 0).val ∧ (i 0).val < win0_4.index t (0 : Fin 2) * 5000 + 5000
    rw [h40, ht]; omega
  | ⟨1, _⟩ =>
    show win0_4.index t (1 : Fin 2) * 64 ≤ (i 1).val ∧ (i 1).val < win0_4.index t (1 : Fin 2) * 64 + 64
    rw [h41]; omega

/-- THE FIRST CALL'S OUTPUT ARRAY: the hidden stage of the arrays it found. -/
theorem hidden_array (c : Dev nD) :
    (dat0 V c).arrAt 4 cfg0.N
      = hidden (V c main_arg0 : S50000x128.Idx → EReal) (V c main_arg2 : S128x64.Idx → EReal)
        (V c main_arg3 : S64.Idx → EReal) (V c main_arg4 : S64x64.Idx → EReal) :=
  (dat0 V c).arrAt_eq_of_cover 4 _ (fun t _ => flushed0 V c t) cover0

/-! ## The second call -/

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Block t of the aggregated features is rows 5000·t … of them. -/
theorem hblock1_apply (c : Dev nD) (t : Fin cfg1.N) (y : S5000x64.Idx) (k : S50000x64.Idx)
    (hk0 : (k 0).val = 5000 * t.val + (y 0).val) (hk1 : (k 1).val = (y 1).val) :
    (iblk1 V c 0 t : Vec Ideal S5000x64 .f32) y = (V c main_v46 : S50000x64.Idx → EReal) k := by
  obtain ⟨h0, h1, -⟩ := idx1 t
  unfold iblk1
  rw [View.read_apply]
  show V c main_v46 _ = V c main_v46 _
  congr 1
  funext a
  apply Fin.ext
  match a with
  | ⟨0, _⟩ => show win1_0.index t (0 : Fin 2) * 5000 + 1 * (y 0).val = (k 0).val; rw [h0, hk0]; omega
  | ⟨1, _⟩ => show win1_0.index t (1 : Fin 2) * 64 + 1 * (y 1).val = (k 1).val; rw [h1, hk1]; omega

theorem w2block1_eq (c : Dev nD) (t : Fin cfg1.N) :
    (iblk1 V c 1 t : Vec Ideal S64x64 .f32) = (V c main_arg6 : S64x64.Idx → EReal) := by
  obtain ⟨-, -, h0, h1, -⟩ := idx1 t
  funext y
  unfold iblk1
  rw [View.read_apply]
  show V c main_arg6 _ = V c main_arg6 _
  congr 1
  funext a
  apply Fin.ext
  match a with
  | ⟨0, _⟩ => show win1_1.index t (0 : Fin 2) * 64 + 1 * (y 0).val = (y 0).val; rw [h0]; omega
  | ⟨1, _⟩ => show win1_1.index t (1 : Fin 2) * 64 + 1 * (y 1).val = (y 1).val; rw [h1]; omega

theorem b2block1_eq (c : Dev nD) (t : Fin cfg1.N) :
    (iblk1 V c 2 t : Vec Ideal S64 .f32) = (V c main_arg7 : S64.Idx → EReal) := by
  obtain ⟨-, -, -, -, h0, -⟩ := idx1 t
  funext y
  unfold iblk1
  rw [View.read_apply]
  show V c main_arg7 _ = V c main_arg7 _
  congr 1
  funext a
  apply Fin.ext
  match a with
  | ⟨0, _⟩ => show win1_2.index t (0 : Fin 1) * 64 + 1 * (y 0).val = (y 0).val; rw [h0]; omega

theorem out_block1 (c : Dev nD) (t : Fin cfg1.N) (y : S5000x64.Idx) (Y : S50000x64.Idx)
    (h0 : (Y 0).val = 5000 * t.val + (y 0).val) (h1 : (Y 1).val = (y 1).val) :
    out (iblk1 V c 0 t : Vec Ideal S5000x64 .f32) (V c main_arg6 : S64x64.Idx → EReal) (V c main_arg7 : S64.Idx → EReal) y
      = out (V c main_v46 : S50000x64.Idx → EReal) (V c main_arg6 : S64x64.Idx → EReal)
        (V c main_arg7 : S64.Idx → EReal) Y := by
  obtain ⟨p, q, rfl⟩ : ∃ (p : Fin 5000) (q : Fin 64), y = ix2 p q := ⟨y 0, y 1, eq_ix2 y⟩
  obtain ⟨P, Q, rfl⟩ : ∃ (P : Fin 50000) (Q : Fin 64), Y = ix2 P Q := ⟨Y 0, Y 1, eq_ix2 Y⟩
  obtain rfl : Q = q := Fin.ext h1
  exact out_rows _ _ _ _ p P Q fun k => hblock1_apply V c t (ix2 p k) (ix2 P k) h0 rfl

/-- WHAT POINT t WRITES BACK is block t of the last stage of the arrays the call found. -/
theorem flushed1 (c : Dev nD) (t : Fin cfg1.N) :
    (dat1 V c).flushed 3 t = ((cfg1.win 3).blk t).view.read (Elt Ideal)
      (out (V c main_v46 : S50000x64.Idx → EReal) (V c main_arg6 : S64x64.Idx → EReal)
        (V c main_arg7 : S64.Idx → EReal)) := by
  obtain ⟨-, -, -, -, -, h30, h31⟩ := idx1 t
  show (cfg1.win 3).cut (grid1.coords t) ((dat1 V c).after 3 t) = _
  rw [after1_3, stage1_eq, w2block1_eq, b2block1_eq]
  funext y
  refine out_block1 V c t y (((cfg1.win 3).blk t).view.emb y) ?_ ?_
  · show win1_3.index t (0 : Fin 2) * 5000 + 1 * (y 0).val = 5000 * t.val + (y 0).val
    rw [h30]; omega
  · show win1_3.index t (1 : Fin 2) * 64 + 1 * (y 1).val = (y 1).val
    rw [h31]; omega

theorem mem_blk1 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v47).slice (win1_3.rect t)).set ↔ _
  rw [View.set_slice_whole, Rect.mem_set_unit]
  exact Iff.rfl

theorem cover1 (i : S50000x64.Idx) :
    ∃ t : Fin cfg1.N, (cfg1.win 3).flush t = true ∧ i ∈ ((cfg1.win 3).blk t).view.set := by
  have hN : cfg1.N = 10 := N_1
  have hi0 : (i 0).val < 50000 := (i 0).isLt
  have hi1 : (i 1).val < 64 := (i 1).isLt
  obtain ⟨t, ht⟩ : ∃ t : Fin cfg1.N, t.val = (i 0).val / 5000 := ⟨⟨(i 0).val / 5000, by rw [hN]; omega⟩, rfl⟩
  obtain ⟨-, -, -, -, -, h30, h31⟩ := idx1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    rw [h30, ht]; omega
  | ⟨1, _⟩ =>
    show win1_3.index t (1 : Fin 2) * 64 ≤ (i 1).val ∧ (i 1).val < win1_3.index t (1 : Fin 2) * 64 + 64
    rw [h31]; omega

/-- THE SECOND CALL'S OUTPUT ARRAY: the last stage of the arrays it found. -/
theorem out_array (c : Dev nD) :
    (dat1 V c).arrAt 3 cfg1.N
      = out (V c main_v46 : S50000x64.Idx → EReal) (V c main_arg6 : S64x64.Idx → EReal)
        (V c main_arg7 : S64.Idx → EReal) :=
  (dat1 V c).arrAt_eq_of_cover 3 _ (fun t _ => flushed1 V c t) cover1

end Cert.Gcn.Kernel

end
-- ==== Proof.AggK.lean ====
/-
  The graph aggregation of Agg.lean spelt with the idealized kernel program's own shape and dimension records.

  The kernel's host operations between its two pallas_calls and the reference's host operations are printed over two
  vocabularies of the same shapes and records. This module states the aggregation over the kernel's vocabulary, so that
  the kernel's host stretches are read against it term for term; AggBridge.lean shows it is the aggregation of Agg.lean.
-/
import proofs.«118106_j11630771437844_2_alg».proof.Proof.Gen.KernelIdeal
import Idealize.ShloMosaic.PureOps.Ideal

noncomputable section

namespace Cert.GcnK

open Idealize.ShloMosaic Cert.KernelIdeal Cert.KernelIdeal.Facts₀

/-- An endpoint list: one row of the edge list followed by the self loops 0, 1, …, 49999. -/
def endpoints (r : Nat) (hs : S2x1600000.Slices ![r, 0] S1x1600000)
    (e : (⟨S2x1600000, .i32⟩ : BufTy).Contents (Elt Ideal)) : (⟨S1650000, .i32⟩ : BufTy).Contents (Elt Ideal) :=
  concatenate S1650000 0
    [⟨S1600000, shapeCast S1600000 (extractStridedSlice S1x1600000 ![r, 0] e hs) shapeCasts_S1x1600000_S1600000⟩,
     ⟨S50000, iotaInDim S50000 32 0⟩] concatenates_S1600000_S50000_S1650000_d0

/-- The sources (row 0) and the targets (row 1), self loops appended. -/
def sources (e : (⟨S2x1600000, .i32⟩ : BufTy).Contents (Elt Ideal)) : (⟨S1650000, .i32⟩ : BufTy).Contents (Elt Ideal) :=
  endpoints 0 slices_S2x1600000_S1x1600000_0_0 e
def targets (e : (⟨S2x1600000, .i32⟩ : BufTy).Contents (Elt Ideal)) : (⟨S1650000, .i32⟩ : BufTy).Contents (Elt Ideal) :=
  endpoints 1 slices_S2x1600000_S1x1600000_1_0 e

/-- A negative endpoint counts from the end: 50 000 is added to it. -/
def wrap (v : (⟨S1650000, .i32⟩ : BufTy).Contents (Elt Ideal)) : (⟨S1650000, .i32⟩ : BufTy).Contents (Elt Ideal) :=
  select (cmpi .slt v (broadcastInDim S1650000 ![] bcast_S_S1650000 (constantI S_ 32 0#32)))
    (addi v (broadcastInDim S1650000 ![] bcast_S_S1650000 (constantI S_ 32 50000#32))) v

/-- A list as a one-column matrix (the index operand of a gather or a scatter; a scale per row). -/
def column {α : Type} (v : S1650000.Idx → α) : S1650000x1.Idx → α :=
  broadcastInDim S1650000x1 ![0] bcast_S1650000_S1650000x1_0 v

/-- The in-degree of every node, self loop included, as a float. -/
def degree (e : (⟨S2x1600000, .i32⟩ : BufTy).Contents (Elt Ideal)) : FVec Ideal S50000 .f32 :=
  Host.scatterAdd scatter_S50000_S1650000x1_S1650000_n_0_0_1
    (broadcastInDim S50000 ![] bcast_S_S50000 (constant (F := Ideal) S_ .f32 0x00000000#32))
    (column (targets e))
    (broadcastInDim S1650000 ![] bcast_S_S1650000 (constant (F := Ideal) S_ .f32 0x3F800000#32))

/-- The choice "where the test holds the first value, elsewhere the scalar spread over the nodes", as the outlined
    helper function computes it (the scalar first passed through a conversion to its own format). -/
def dinvOf (pos : IVec S50000 1) (rs : FVec Ideal S50000 .f32) (z : FVec Ideal S_ .f32) : FVec Ideal S50000 .f32 :=
  select pos rs (broadcastInDim S50000 ![] bcast_S_S50000 (id z))

/-- degree^(-1/2) where the degree is positive, zero elsewhere. -/
def dinv (e : (⟨S2x1600000, .i32⟩ : BufTy).Contents (Elt Ideal)) : FVec Ideal S50000 .f32 :=
  dinvOf (cmpf .ogt (degree e) (broadcastInDim S50000 ![] bcast_S_S50000 (constant (F := Ideal) S_ .f32 0x00000000#32)))
    (Host.rsqrt (degree e)) (constant (F := Ideal) S_ .f32 0x00000000#32)

/-- The aggregation from the endpoint lists and the per-node scale: the symmetric normalisation
    scale(source)·scale(target) of every edge and self loop, the features gathered at the sources and scaled by it,
    scattered onto zero at the targets, plus the bias spread over the rows. -/
def aggOf (h : FVec Ideal S50000x64 .f32) (src tgt : (⟨S1650000, .i32⟩ : BufTy).Contents (Elt Ideal))
    (dv : FVec Ideal S50000 .f32) (b : FVec Ideal S64 .f32) : FVec Ideal S50000x64 .f32 :=
  addf
    (Host.scatterAdd scatter_S50000x64_S1650000x1_S1650000x64_1_0_0_1
      (broadcastInDim S50000x64 ![] bcast_S_S50000x64 (constant (F := Ideal) S_ .f32 0x00000000#32))
      (column tgt)
      (mulf (Host.gather gather_S50000x64_S1650000x1_S1650000x64_1_0_n_n_0_1_164 h (column (wrap src)))
        (broadcastInDim S1650000x64 ![0, 1] bcast_S1650000x1_S1650000x64_0_1
          (column
            (mulf (Host.gather gather_S50000_S1650000x1_S1650000_n_0_n_n_0_1_1 dv (column (wrap src)))
              (Host.gather gather_S50000_S1650000x1_S1650000_n_0_n_n_0_1_1 dv (column (wrap tgt))))))))
    (broadcastInDim S50000x64 ![0, 1] bcast_S1x64_S50000x64_0_1 (broadcastInDim S1x64 ![1] bcast_S64_S1x64_1 b))

/-- THE AGGREGATION: every node sums the normalised features of its in-neighbours (itself among them), plus the bias. -/
def agg (h : FVec Ideal S50000x64 .f32) (e : (⟨S2x1600000, .i32⟩ : BufTy).Contents (Elt Ideal)) (b : FVec Ideal S64 .f32) :
    FVec Ideal S50000x64 .f32 :=
  aggOf h (sources e) (targets e) (dinv e) b

end Cert.GcnK

end
-- ==== Proof.LibConcatPieces.lean ====
/-
  Reading a line of host operations through its concatenations.

  The value a buffer holds after a line of host operations is computed by one rewriting pass over the operations'
  result equations.  A concatenation keeps its pieces in a list of (shape, array) pairs, and the pass cannot rewrite an
  array inside such a dependent pair, so it stops there with the pieces' own values unread.  `cat2` and `cat3` are the
  two- and three-piece concatenations with the pieces as plain arguments (equal to the list form by definition): with
  `cat2_def` / `cat3_def` among the pass's equations it reads on through the pieces (`after_pieces`).  A concatenation
  of three buffers named by a literal family `![x, a, b]` reads its pieces at `![x, a, b] k`; `pieces_idx` reduces those.
-/
import Idealize.ShloMosaic.Lib.StableHlo.Run
import Mathlib.Data.Fin.VecNotation

noncomputable section

namespace Cert.LibConcatPieces

open Idealize.ShloMosaic Idealize.ShloMosaic.StableHlo

variable {α : Type}

/-- Two arrays joined along axis `a` of the result shape `t`. -/
def cat2 (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

theorem cat2_def (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

/-- Three arrays joined along axis `a` of the result shape `t`. -/
def cat3 (t : Shape) (a : Fin t.rank) (s₁ s₂ s₃ : Shape) (h : Shape.Concatenates [s₁, s₂, s₃] t a)
    (x₁ : s₁.Idx → α) (x₂ : s₂.Idx → α) (x₃ : s₃.Idx → α) : t.Idx → α :=
  concatenate t a [⟨s₁, x₁⟩, ⟨s₂, x₂⟩, ⟨s₃, x₃⟩] h

theorem cat3_def (t : Shape) (a : Fin t.rank) (s₁ s₂ s₃ : Shape) (h : Shape.Concatenates [s₁, s₂, s₃] t a)
    (x₁ : s₁.Idx → α) (x₂ : s₂.Idx → α) (x₃ : s₃.Idx → α) :
    concatenate t a [⟨s₁, x₁⟩, ⟨s₂, x₂⟩, ⟨s₃, x₃⟩] h = cat3 t a s₁ s₂ s₃ h x₁ x₂ x₃ := rfl

/-- The result equations of a line of host operations as one pass, reading on through two- and three-piece
    concatenations. -/
macro "after_pieces" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', cat2_def, cat3_def]))

theorem vec3_0 {β : Type} (x a b : β) : (![x, a, b] : Fin 3 → β) 0 = x := rfl
theorem vec3_1 {β : Type} (x a b : β) : (![x, a, b] : Fin 3 → β) 1 = a := rfl
theorem vec3_2 {β : Type} (x a b : β) : (![x, a, b] : Fin 3 → β) 2 = b := rfl

/-- Entry `k` of a literal family of three references. -/
macro "pieces_idx" : tactic =>
  `(tactic| dsimp only [vec3_0, vec3_1, vec3_2])

end Cert.LibConcatPieces

end
-- ==== Proof.KernelHost.lean ====
/-
  The kernel's host operations between its two pallas_calls, read stretch by stretch.

  The operations come in three stretches (the middle one the outlined helper function's three operations). Each is read
  here from ARBITRARY buffer contents U, at the few buffers the later stretches read, so that no term repeats an earlier
  stretch's work:
    after the first stretch   the two endpoint lists, the test "degree > 0", the inverse square root of the degree and the
                              zero scalar, all functions of the edge list alone; the features and the bias untouched;
    after the helper's        the per-node scale chosen from those three; the endpoint lists, the features, the bias untouched;
    after the last stretch    the aggregation from the features, the two endpoint lists, the scale and the bias.
-/
import proofs.«118106_j11630771437844_2_alg».proof.Proof.Gen.KernelIdeal.Launch
import Idealize.ShloMosaic.Lib.StableHlo.Run
import proofs.«118106_j11630771437844_2_alg».proof.Proof.AggK
import proofs.«118106_j11630771437844_2_alg».proof.Proof.LibConcatPieces

set_option maxRecDepth 16384

noncomputable section

namespace Cert.Gcn.KernelHost

open Idealize.ShloMosaic Idealize.ShloMosaic.TcCoe Idealize.SL.Sem
open Cert.KernelIdeal Cert.KernelIdeal.Gen Cert.LibConcatPieces

variable (U : Valuation τ sig (Elt Ideal))

/-! ## The first stretch -/

theorem first_sources :
    StableHlo.after (hostOps1 (F := Ideal)) U (Proc.devRef .tc main_v6) = Cert.GcnK.sources (U (Proc.devRef .tc main_arg1)) := by
  simp only [hostOps1]; after_pieces; rfl

theorem first_targets :
    StableHlo.after (hostOps1 (F := Ideal)) U (Proc.devRef .tc main_v7) = Cert.GcnK.targets (U (Proc.devRef .tc main_arg1)) := by
  simp only [hostOps1]; after_pieces; rfl

theorem first_positive :
    StableHlo.after (hostOps1 (F := Ideal)) U (Proc.devRef .tc main_v13)
      = cmpf .ogt (Cert.GcnK.degree (U (Proc.devRef .tc main_arg1)))
          (broadcastInDim S50000 ![] Facts₀.bcast_S_S50000 (constant (F := Ideal) S_ .f32 0x00000000#32)) := by
  simp only [hostOps1]; after_pieces; rfl

theorem first_rsqrt :
    StableHlo.after (hostOps1 (F := Ideal)) U (Proc.devRef .tc main_v14)
      = Host.rsqrt (Cert.GcnK.degree (U (Proc.devRef .tc main_arg1))) := by
  simp only [hostOps1]; after_pieces; rfl

theorem first_zero :
    StableHlo.after (hostOps1 (F := Ideal)) U (Proc.devRef .tc main_cst_2) = constant (F := Ideal) S_ .f32 0x00000000#32 := by
  simp only [hostOps1]; after_pieces

theorem first_features :
    StableHlo.after (hostOps1 (F := Ideal)) U (Proc.devRef .tc main_v0) = U (Proc.devRef .tc main_v0) := by
  simp only [hostOps1]; after_pieces

theorem first_bias :
    StableHlo.after (hostOps1 (F := Ideal)) U (Proc.devRef .tc main_arg5) = U (Proc.devRef .tc main_arg5) := by
  simp only [hostOps1]; after_pieces

/-! ## The helper function's stretch -/

theorem helper_scale :
    StableHlo.after (hostOps1_1 (F := Ideal)) U (Proc.devRef .tc main_v15)
      = Cert.GcnK.dinvOf (U (Proc.devRef .tc main_v13)) (U (Proc.devRef .tc main_v14)) (U (Proc.devRef .tc main_cst_2)) := by
  simp only [hostOps1_1]; after_pieces; rfl

theorem helper_sources :
    StableHlo.after (hostOps1_1 (F := Ideal)) U (Proc.devRef .tc main_v6) = U (Proc.devRef .tc main_v6) := by
  simp only [hostOps1_1]; after_pieces

theorem helper_targets :
    StableHlo.after (hostOps1_1 (F := Ideal)) U (Proc.devRef .tc main_v7) = U (Proc.devRef .tc main_v7) := by
  simp only [hostOps1_1]; after_pieces

theorem helper_features :
    StableHlo.after (hostOps1_1 (F := Ideal)) U (Proc.devRef .tc main_v0) = U (Proc.devRef .tc main_v0) := by
  simp only [hostOps1_1]; after_pieces

theorem helper_bias :
    StableHlo.after (hostOps1_1 (F := Ideal)) U (Proc.devRef .tc main_arg5) = U (Proc.devRef .tc main_arg5) := by
  simp only [hostOps1_1]; after_pieces

/-! ## The last stretch -/

theorem last_aggregated :
    StableHlo.after (hostOps1_2 (F := Ideal)) U (Proc.devRef .tc main_v46)
      = Cert.GcnK.aggOf (U (Proc.devRef .tc main_v0)) (U (Proc.devRef .tc main_v6)) (U (Proc.devRef .tc main_v7))
          (U (Proc.devRef .tc main_v15)) (U (Proc.devRef .tc main_arg5)) := by
  simp only [hostOps1_2]; after_pieces; rfl

/-! ## The three stretches in order -/

/-- From any contents, after the three stretches the second call's first operand is the aggregation of the features,
    the edge list and the bias found at the start. -/
theorem aggregated :
    StableHlo.after (hostOps1_2 (F := Ideal)) (StableHlo.after (hostOps1_1 (F := Ideal)) (StableHlo.after (hostOps1 (F := Ideal)) U))
        (Proc.devRef .tc main_v46)
      = Cert.GcnK.agg (U (Proc.devRef .tc main_v0)) (U (Proc.devRef .tc main_arg1)) (U (Proc.devRef .tc main_arg5)) := by
  rw [last_aggregated, helper_features, helper_sources, helper_targets, helper_scale, helper_bias,
    first_features, first_sources, first_targets, first_positive, first_rsqrt, first_zero, first_bias]
  rfl

end Cert.Gcn.KernelHost

end
-- ==== Proof.Agg.lean ====
/-
  The graph aggregation both programs compute between the two dense stages, as ONE function.

  From the edge list e (row 0 the sources, row 1 the targets of 1 600 000 edges) and the 50 000 self loops appended to
  both rows (1 650 000 endpoints each):
    degree(n)  = the number of endpoints in the extended target list equal to n, accumulated from zero by a scatter of ones;
    dinv(n)    = degree(n)^(-1/2) where degree(n) > 0, else 0;
    norm(k)    = dinv(source k) · dinv(target k), a negative endpoint first wrapped by adding 50 000;
    agg h e b  = the scatter, onto zero, at each target of norm(k) · h(source k, ·) , plus the bias b spread over the rows.
  Both the kernel's host operations between its two pallas_calls and the reference's host operations are this same
  sequence of gathers and accumulating scatters; nothing about it is opened in this certificate: the two programs are
  compared by showing that each applies `agg` to the same hidden features.
-/
import proofs.«118106_j11630771437844_2_alg».proof.Proof.Gen.ReferenceIdeal
import Idealize.ShloMosaic.PureOps.Ideal

noncomputable section

namespace Cert.Gcn

open Idealize.ShloMosaic Cert.ReferenceIdeal Cert.ReferenceIdeal.Facts₀

/-- An endpoint list: one row of the edge list followed by the self loops 0, 1, …, 49999. -/
def endpoints (r : Nat) (hs : S2x1600000.Slices ![r, 0] S1x1600000)
    (e : (⟨S2x1600000, .i32⟩ : BufTy).Contents (Elt Ideal)) : (⟨S1650000, .i32⟩ : BufTy).Contents (Elt Ideal) :=
  concatenate S1650000 0
    [⟨S1600000, shapeCast S1600000 (extractStridedSlice S1x1600000 ![r, 0] e hs) shapeCasts_S1x1600000_S1600000⟩,
     ⟨S50000, iotaInDim S50000 32 0⟩] concatenates_S1600000_S50000_S1650000_d0

/-- The sources (row 0) and the targets (row 1), self loops appended. -/
def sources (e : (⟨S2x1600000, .i32⟩ : BufTy).Contents (Elt Ideal)) : (⟨S1650000, .i32⟩ : BufTy).Contents (Elt Ideal) :=
  endpoints 0 slices_S2x1600000_S1x1600000_0_0 e
def targets (e : (⟨S2x1600000, .i32⟩ : BufTy).Contents (Elt Ideal)) : (⟨S1650000, .i32⟩ : BufTy).Contents (Elt Ideal) :=
  endpoints 1 slices_S2x1600000_S1x1600000_1_0 e

/-- A negative endpoint counts from the end: 50 000 is added to it. -/
def wrap (v : (⟨S1650000, .i32⟩ : BufTy).Contents (Elt Ideal)) : (⟨S1650000, .i32⟩ : BufTy).Contents (Elt Ideal) :=
  select (cmpi .slt v (broadcastInDim S1650000 ![] bcast_S_S1650000 (constantI S_ 32 0#32)))
    (addi v (broadcastInDim S1650000 ![] bcast_S_S1650000 (constantI S_ 32 50000#32))) v

/-- A list as a one-column matrix (the index operand of a gather or a scatter; a scale per row). -/
def column {α : Type} (v : S1650000.Idx → α) : S1650000x1.Idx → α :=
  broadcastInDim S1650000x1 ![0] bcast_S1650000_S1650000x1_0 v

/-- The in-degree of every node, self loop included, as a float. -/
def degree (e : (⟨S2x1600000, .i32⟩ : BufTy).Contents (Elt Ideal)) : FVec Ideal S50000 .f32 :=
  Host.scatterAdd scatter_S50000_S1650000x1_S1650000_n_0_0_1
    (broadcastInDim S50000 ![] bcast_S_S50000 (constant (F := Ideal) S_ .f32 0x00000000#32))
    (column (targets e))
    (broadcastInDim S1650000 ![] bcast_S_S1650000 (constant (F := Ideal) S_ .f32 0x3F800000#32))

/-- The choice "where the test holds the first value, elsewhere the scalar spread over the nodes", as the outlined
    helper function computes it (the scalar first passed through a conversion to its own format). -/
def dinvOf (pos : IVec S50000 1) (rs : FVec Ideal S50000 .f32) (z : FVec Ideal S_ .f32) : FVec Ideal S50000 .f32 :=
  select pos rs (broadcastInDim S50000 ![] bcast_S_S50000 (id z))

/-- degree^(-1/2) where the degree is positive, zero elsewhere. -/
def dinv (e : (⟨S2x1600000, .i32⟩ : BufTy).Contents (Elt Ideal)) : FVec Ideal S50000 .f32 :=
  dinvOf (cmpf .ogt (degree e) (broadcastInDim S50000 ![] bcast_S_S50000 (constant (F := Ideal) S_ .f32 0x00000000#32)))
    (Host.rsqrt (degree e)) (constant (F := Ideal) S_ .f32 0x00000000#32)

/-- The aggregation from the endpoint lists and the per-node scale: the symmetric normalisation
    scale(source)·scale(target) of every edge and self loop, the features gathered at the sources and scaled by it,
    scattered onto zero at the targets, plus the bias spread over the rows. -/
def aggOf (h : FVec Ideal S50000x64 .f32) (src tgt : (⟨S1650000, .i32⟩ : BufTy).Contents (Elt Ideal))
    (dv : FVec Ideal S50000 .f32) (b : FVec Ideal S64 .f32) : FVec Ideal S50000x64 .f32 :=
  addf
    (Host.scatterAdd scatter_S50000x64_S1650000x1_S1650000x64_1_0_0_1
      (broadcastInDim S50000x64 ![] bcast_S_S50000x64 (constant (F := Ideal) S_ .f32 0x00000000#32))
      (column tgt)
      (mulf (Host.gather gather_S50000x64_S1650000x1_S1650000x64_1_0_n_n_0_1_164 h (column (wrap src)))
        (broadcastInDim S1650000x64 ![0, 1] bcast_S1650000x1_S1650000x64_0_1
          (column
            (mulf (Host.gather gather_S50000_S1650000x1_S1650000_n_0_n_n_0_1_1 dv (column (wrap src)))
              (Host.gather gather_S50000_S1650000x1_S1650000_n_0_n_n_0_1_1 dv (column (wrap tgt))))))))
    (broadcastInDim S50000x64 ![0, 1] bcast_S1x64_S50000x64_0_1 (broadcastInDim S1x64 ![1] bcast_S64_S1x64_1 b))

/-- THE AGGREGATION: every node sums the normalised features of its in-neighbours (itself among them), plus the bias. -/
def agg (h : FVec Ideal S50000x64 .f32) (e : (⟨S2x1600000, .i32⟩ : BufTy).Contents (Elt Ideal)) (b : FVec Ideal S64 .f32) :
    FVec Ideal S50000x64 .f32 :=
  aggOf h (sources e) (targets e) (dinv e) b

end Cert.Gcn

end
-- ==== Proof.AggBridge.lean ====
/-
  The aggregation over the kernel's vocabulary is the aggregation over the reference's.

  The two printed programs name the same shapes and the same gather / scatter dimension records separately. Part by
  part — the endpoint lists, the wrap of a negative endpoint, the one-column form, the degree, its inverse square root,
  the aggregation from endpoint lists and scale — the two spellings are one function: each part is compared with its
  constituents already identified, so no comparison ever opens a gather or a scatter.
-/
import proofs.«118106_j11630771437844_2_alg».proof.Proof.Agg
import proofs.«118106_j11630771437844_2_alg».proof.Proof.AggK

noncomputable section

namespace Cert.Gcn.Bridge

open Idealize.ShloMosaic

theorem sources_eq (e : (⟨Cert.KernelIdeal.S2x1600000, .i32⟩ : BufTy).Contents (Elt Ideal)) :
    Cert.GcnK.sources e = Cert.Gcn.sources e := rfl

theorem targets_eq (e : (⟨Cert.KernelIdeal.S2x1600000, .i32⟩ : BufTy).Contents (Elt Ideal)) :
    Cert.GcnK.targets e = Cert.Gcn.targets e := rfl

theorem wrap_eq (v : (⟨Cert.KernelIdeal.S1650000, .i32⟩ : BufTy).Contents (Elt Ideal)) :
    Cert.GcnK.wrap v = Cert.Gcn.wrap v := rfl

theorem column_eq {α : Type} (v : Cert.KernelIdeal.S1650000.Idx → α) :
    Cert.GcnK.column v = Cert.Gcn.column v := rfl

theorem degree_eq (e : (⟨Cert.KernelIdeal.S2x1600000, .i32⟩ : BufTy).Contents (Elt Ideal)) :
    Cert.GcnK.degree e = Cert.Gcn.degree e := by
  unfold Cert.GcnK.degree Cert.Gcn.degree
  rw [targets_eq, column_eq]
  rfl

theorem dinvOf_eq (pos : IVec Cert.KernelIdeal.S50000 1) (rs : FVec Ideal Cert.KernelIdeal.S50000 .f32)
    (z : FVec Ideal Cert.KernelIdeal.S_ .f32) : Cert.GcnK.dinvOf pos rs z = Cert.Gcn.dinvOf pos rs z := rfl

theorem dinv_eq (e : (⟨Cert.KernelIdeal.S2x1600000, .i32⟩ : BufTy).Contents (Elt Ideal)) :
    Cert.GcnK.dinv e = Cert.Gcn.dinv e := by
  unfold Cert.GcnK.dinv Cert.Gcn.dinv
  rw [degree_eq, dinvOf_eq]

theorem aggOf_eq (h : FVec Ideal Cert.KernelIdeal.S50000x64 .f32)
    (src tgt : (⟨Cert.KernelIdeal.S1650000, .i32⟩ : BufTy).Contents (Elt Ideal))
    (dv : FVec Ideal Cert.KernelIdeal.S50000 .f32) (b : FVec Ideal Cert.KernelIdeal.S64 .f32) :
    Cert.GcnK.aggOf h src tgt dv b = Cert.Gcn.aggOf h src tgt dv b := by
  unfold Cert.GcnK.aggOf Cert.Gcn.aggOf
  rw [wrap_eq, wrap_eq, column_eq, column_eq, column_eq, column_eq]
  rfl

/-- THE BRIDGE: one aggregation. -/
theorem agg_eq (h : FVec Ideal Cert.KernelIdeal.S50000x64 .f32)
    (e : (⟨Cert.KernelIdeal.S2x1600000, .i32⟩ : BufTy).Contents (Elt Ideal)) (b : FVec Ideal Cert.KernelIdeal.S64 .f32) :
    Cert.GcnK.agg h e b = Cert.Gcn.agg h e b := by
  unfold Cert.GcnK.agg Cert.Gcn.agg
  rw [aggOf_eq, sources_eq, targets_eq, dinv_eq]

end Cert.Gcn.Bridge

end
-- ==== Proof.KernelValue.lean ====
/-
  The idealized kernel's result as a function of its arguments.

  Reading the fold of boundary contents backwards from the result buffer: the second pallas_call leaves the last dense
  stage of the arrays it found; its first operand is what the three host stretches made of the first call's output — the
  aggregation —; the first call leaves the hidden stage of the launch arrays; and the weights, the biases and the edge
  list are read at the launch memory, since no call and no host operation writes them.
-/
import proofs.«118106_j11630771437844_2_alg».proof.Proof.KernelArrays
import proofs.«118106_j11630771437844_2_alg».proof.Proof.KernelHost
import proofs.«118106_j11630771437844_2_alg».proof.Proof.AggBridge

set_option maxRecDepth 16384

noncomputable section

namespace Cert.Gcn.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Between the two calls: the second call's first operand is the aggregation of the first call's output, the edge list
    and the bias as the first call left them. -/
theorem aggregated (c : Dev nD) :
    W4 m ρ c (Proc.devRef .tc main_v46)
      = Cert.Gcn.agg (W1 m ρ c (Proc.devRef .tc main_v0)) (W1 m ρ c (Proc.devRef .tc main_arg1))
          (W1 m ρ c (Proc.devRef .tc main_arg5)) := by
  show StableHlo.after hostOps1_2 (StableHlo.after hostOps1_1 (StableHlo.after hostOps1 (W1 m ρ c)))
      (Proc.devRef .tc main_v46) = _
  rw [Cert.Gcn.KernelHost.aggregated (W1 m ρ c)]
  exact Cert.Gcn.Bridge.agg_eq _ _ _

/-- The first call's output after it: the hidden stage of the launch arrays. -/
theorem hidden_out (c : Dev nD) :
    W1 m ρ c (Proc.devRef .tc main_v0)
      = Cert.Gcn.Layers.hidden (m ((c : Thread nD τ).loc main_arg0) : S50000x128.Idx → EReal)
          (m ((c : Thread nD τ).loc main_arg2) : S128x64.Idx → EReal) (m ((c : Thread nD τ).loc main_arg3) : S64.Idx → EReal)
          (m ((c : Thread nD τ).loc main_arg4) : S64x64.Idx → EReal) :=
  (W1_arr m ρ c 4).trans (hidden_array (V0 m ρ) c)

/-- THE RESULT: the last stage of the aggregation of the hidden stage, all of the launch arrays. -/
theorem result_eq (c : Dev nD) :
    W5 m ρ c (Proc.devRef .tc main_v47)
      = Cert.Gcn.Layers.out
          (Cert.Gcn.agg
            (Cert.Gcn.Layers.hidden (m ((c : Thread nD τ).loc main_arg0) : S50000x128.Idx → EReal)
              (m ((c : Thread nD τ).loc main_arg2) : S128x64.Idx → EReal) (m ((c : Thread nD τ).loc main_arg3) : S64.Idx → EReal)
              (m ((c : Thread nD τ).loc main_arg4) : S64x64.Idx → EReal))
            (m ((c : Thread nD τ).loc main_arg1)) (m ((c : Thread nD τ).loc main_arg5)))
          (m ((c : Thread nD τ).loc main_arg6) : S64x64.Idx → EReal) (m ((c : Thread nD τ).loc main_arg7) : S64.Idx → EReal) := by
  -- an input window's array is left as the call found it
  have e6 : W4 m ρ c (Proc.devRef .tc main_arg6) = m ((c : Thread nD τ).loc main_arg6) :=
    ((W5_arr m ρ c 1).trans (((dat1 (V4 m ρ) c).arrAt_in 1 rfl _).trans (A_eq1 (V4 m ρ) c 1))).symm.trans
      (W5_main_arg6 m ρ c)
  have e7 : W4 m ρ c (Proc.devRef .tc main_arg7) = m ((c : Thread nD τ).loc main_arg7) :=
    ((W5_arr m ρ c 2).trans (((dat1 (V4 m ρ) c).arrAt_in 2 rfl _).trans (A_eq1 (V4 m ρ) c 2))).symm.trans
      (W5_main_arg7 m ρ c)
  have e1 : W1 m ρ c (Proc.devRef .tc main_arg1) = m ((c : Thread nD τ).loc main_arg1) := W1_of_ne m ρ c main_arg1 (by decide)
  have e5 : W1 m ρ c (Proc.devRef .tc main_arg5) = m ((c : Thread nD τ).loc main_arg5) := W1_of_ne m ρ c main_arg5 (by decide)
  refine (W5_arr m ρ c 3).trans ((out_array (V4 m ρ) c).trans ?_)
  show Cert.Gcn.Layers.out (W4 m ρ c (Proc.devRef .tc main_v46)) (W4 m ρ c (Proc.devRef .tc main_arg6))
      (W4 m ρ c (Proc.devRef .tc main_arg7)) = _
  rw [e6, e7, aggregated, hidden_out, e1, e5]

end Cert.Gcn.Kernel

end
-- ==== Proof.RefValue.lean ====
/-
  The idealized reference's result as a function of its arguments.

  The reference's @main is one line of host operations; its run ends with the result buffer at the operations' composed
  term of the arguments. That term is: a dot_general, a bias row and a maximum with zero, a dot_general (the hidden
  stage), then the aggregation, then a dot_general and a bias row (the last stage). The two dense parts are read entry by
  entry as sums; the aggregation is named and not opened.
-/
import proofs.«118106_j11630771437844_2_alg».proof.Proof.RefRun
import proofs.«118106_j11630771437844_2_alg».proof.Proof.Agg
import proofs.«118106_j11630771437844_2_alg».proof.Proof.Layers

set_option maxRecDepth 16384

noncomputable section

namespace Cert.Gcn.Ref

open Idealize.ShloMosaic Idealize.ShloMosaic.TcCoe Idealize.SL.Sem
open Cert.ReferenceIdeal Cert.ReferenceIdeal.Facts₀

variable (m : (ℓ : Loc nD τ sig) → Buf (Elt Ideal) ℓ)

/-- The reference's term with its three parts named: dense, aggregation, dense. -/
theorem term_eq (c : Dev nD) :
    Cert.ReferenceIdeal.ValueP.res_main_v55 (F := Ideal) m c
      = addf
          (Host.dotGeneral (φ₁ := .f32) (φ₂ := .f32) dot_S50000x64_S64x64_S50000x64_1_0_0_1_n_n none
            (Cert.Gcn.agg
              (Host.dotGeneral (φ₁ := .f32) (φ₂ := .f32) dot_S50000x64_S64x64_S50000x64_1_0_0_1_n_n none
                (maximumf
                  (addf
                    (Host.dotGeneral (φ₁ := .f32) (φ₂ := .f32) dot_S50000x128_S128x64_S50000x64_1_0_0_1_n_n none
                      (m ((c.tc : Thread nD τ).loc main_arg0) : FVec Ideal S50000x128 .f32) (m ((c.tc : Thread nD τ).loc main_arg2) : FVec Ideal S128x64 .f32))
                    (broadcastInDim S50000x64 ![0, 1] bcast_S1x64_S50000x64_0_1
                      (broadcastInDim S1x64 ![1] bcast_S64_S1x64_1 (m ((c.tc : Thread nD τ).loc main_arg3) : FVec Ideal S64 .f32))))
                  (broadcastInDim S50000x64 ![] bcast_S_S50000x64 (constant (F := Ideal) S_ .f32 0x00000000#32)))
                (m ((c.tc : Thread nD τ).loc main_arg4) : FVec Ideal S64x64 .f32))
              (m ((c.tc : Thread nD τ).loc main_arg1)) (m ((c.tc : Thread nD τ).loc main_arg5) : FVec Ideal S64 .f32))
            (m ((c.tc : Thread nD τ).loc main_arg6) : FVec Ideal S64x64 .f32))
          (broadcastInDim S50000x64 ![0, 1] bcast_S1x64_S50000x64_0_1
            (broadcastInDim S1x64 ![1] bcast_S64_S1x64_1 (m ((c.tc : Thread nD τ).loc main_arg7) : FVec Ideal S64 .f32))) := rfl

/-- THE RESULT: the last stage of the aggregation of the hidden stage of the arguments. -/
theorem result_eq (c : Dev nD) :
    Cert.ReferenceIdeal.ValueP.res_main_v55 (F := Ideal) m c
      = Cert.Gcn.Layers.out
          (Cert.Gcn.agg
            (Cert.Gcn.Layers.hidden (m ((c.tc : Thread nD τ).loc main_arg0) : S50000x128.Idx → EReal)
              (m ((c.tc : Thread nD τ).loc main_arg2) : S128x64.Idx → EReal) (m ((c.tc : Thread nD τ).loc main_arg3) : S64.Idx → EReal)
              (m ((c.tc : Thread nD τ).loc main_arg4) : S64x64.Idx → EReal))
            (m ((c.tc : Thread nD τ).loc main_arg1)) (m ((c.tc : Thread nD τ).loc main_arg5) : FVec Ideal S64 .f32))
          (m ((c.tc : Thread nD τ).loc main_arg6) : S64x64.Idx → EReal) (m ((c.tc : Thread nD τ).loc main_arg7) : S64.Idx → EReal) := by
  refine (term_eq m c).trans ?_
  rw [Cert.Gcn.Layers.host_hidden_eq dot_S50000x128_S128x64_S50000x64_1_0_0_1_n_n rfl
    dot_S50000x64_S64x64_S50000x64_1_0_0_1_n_n rfl ![1] rfl bcast_S64_S1x64_1 ![0, 1] rfl bcast_S1x64_S50000x64_0_1
    ![] bcast_S_S50000x64]
  exact Cert.Gcn.Layers.host_out_eq dot_S50000x64_S64x64_S50000x64_1_0_0_1_n_n rfl ![1] rfl bcast_S64_S1x64_1
    ![0, 1] rfl bcast_S1x64_S50000x64_0_1 _ _ _

end Cert.Gcn.Ref

end
-- ==== Proof.lean ====
/-
  A two-layer graph network on 50 000 nodes and 1 600 000 edges: the kernel against its plain reference, at the ideal
  reading of floats (extended reals, exact operations).

  Both programs compute
      out( agg( hidden(x, W₁, b₁, W_g), edges, b_g ), W₂, b₂ )
  where hidden = relu(x·W₁ + b₁)·W_g and out = h·W₂ + b₂ are dense stages and agg is the degree-normalised neighbourhood sum
  with self loops (gathers and accumulating scatters along the edge list) plus a bias.

  The kernel computes hidden and out in two pallas_calls, each over ten blocks of 5000 rows, with operands narrowed to
  bf16 before every matrix product and products accumulated from zero; between the calls it runs agg as host operations.
  The reference runs everything as host operations with dot_general. Over the extended reals narrowing is the identity
  and a matrix product into a zero accumulator is the sum of products, so a stage computed row block by row block is the
  stage of the whole array (a row of a dense stage reads one row of its first operand), and the two programs apply the SAME
  aggregation to the SAME hidden features: the results are equal entry by entry, with no condition on the inputs.

  The frames of the two kernel programs are the generated ones; the reference's frame is its run with the result dropped.
  The ideal pass rewrote nothing, so the idealization claim is trivial.
-/
import proofs.«118106_j11630771437844_2_alg».proof.Defs
import proofs.«118106_j11630771437844_2_alg».proof.Proof.Gen.Kernel
import proofs.«118106_j11630771437844_2_alg».proof.Proof.Gen.Kernel.Skeleton
import proofs.«118106_j11630771437844_2_alg».proof.Proof.Gen.Kernel.Launch
import proofs.«118106_j11630771437844_2_alg».proof.Proof.Gen.Kernel.Points
import proofs.«118106_j11630771437844_2_alg».proof.Proof.Gen.Kernel.Frame
import proofs.«118106_j11630771437844_2_alg».proof.Proof.Gen.KernelIdeal
import proofs.«118106_j11630771437844_2_alg».proof.Proof.Gen.KernelIdeal.Skeleton
import proofs.«118106_j11630771437844_2_alg».proof.Proof.Gen.KernelIdeal.Launch
import proofs.«118106_j11630771437844_2_alg».proof.Proof.Gen.KernelIdeal.Points
import proofs.«118106_j11630771437844_2_alg».proof.Proof.Gen.KernelIdeal.Frame
import proofs.«118106_j11630771437844_2_alg».proof.Proof.Gen.ReferenceIdeal
import proofs.«118106_j11630771437844_2_alg».proof.Proof.Gen.Pre_finite_inputs
import proofs.«118106_j11630771437844_2_alg».proof.Proof.KernelRunNamed
import proofs.«118106_j11630771437844_2_alg».proof.Proof.KernelValue
import proofs.«118106_j11630771437844_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end with the result at out(agg(hidden(x, W₁, b₁, W_g), edges, b_g), W₂, b₂) of arguments that agree. -/
theorem algebraic : Cert.algebraic_KernelIdeal_ReferenceIdeal := by
  intro m ρ m' ρ' _ hagree
  refine ⟨fun c => Cert.KernelIdeal.Gen.W5 m ρ c (Proc.devRef .tc Cert.KernelIdeal.main_v47), ?_, ?_⟩
  · exact Cert.Gcn.Kernel.run_result (F := Ideal) m ρ
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7⟩ := hagree c
    rw [Cert.Gcn.Ref.result_eq m' c, a0, a1, a2, a3, a4, a5, a6, a7]
    exact (Cert.Gcn.Kernel.result_eq m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
